-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 87
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x1, .f32⟩
  | .hbm, ⟨79, _⟩ => ⟨S1700000x128, .f32⟩
  | .hbm, ⟨80, _⟩ => ⟨S1700000x128, .f32⟩
  | .hbm, ⟨81, _⟩ => ⟨S_, .f32⟩
  | .hbm, ⟨82, _⟩ => ⟨S100000x128, .f32⟩
  | .hbm, ⟨83, _⟩ => ⟨S1700000x1, .i32⟩
  | .hbm, ⟨84, _⟩ => ⟨S100000x128, .f32⟩
  | .hbm, ⟨85, _⟩ => ⟨S1x128, .f32⟩
  | .hbm, ⟨86, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S100000, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x128, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S1x1600000, .i32⟩
  | 73 => ⟨S1600000, .i32⟩
  | 74 => ⟨S1x1600000, .i32⟩
  | 75 => ⟨S1600000, .i32⟩
  | 76 => ⟨S100000, .i32⟩
  | 77 => ⟨S1700000, .i32⟩
  | 78 => ⟨S1700000, .i32⟩
  | 79 => ⟨S_, .f32⟩
  | 80 => ⟨S100000, .f32⟩
  | 81 => ⟨S1700000, .f32⟩
  | 82 => ⟨S_, .f32⟩
  | 83 => ⟨S100000, .f32⟩
  | 84 => ⟨S1700000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S1700000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000, .f32⟩
  | 113 => ⟨S1700000, .f32⟩
  | 114 => ⟨S100000x128, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x128, .f32⟩
  | 124 => ⟨S1700000x1, .f32⟩
  | 125 => ⟨S1700000x128, .f32⟩
  | 126 => ⟨S1700000x128, .f32⟩
  | 127 => ⟨S_, .f32⟩
  | _ => ⟨S100000x128, .f32⟩

abbrev hbmTy0_1 (i : Nat) : BufTy := match i % 128 with
  | 0 => ⟨S100000x128, .f32⟩
  | 1 => ⟨S1700000x1, .i32⟩
  | 2 => ⟨S100000x128, .f32⟩
  | 3 => ⟨S1x128, .f32⟩
  | 4 => ⟨S100000x128, .f32⟩
  | 5 => ⟨S100000x128, .f32⟩
  | 6 => ⟨S100000x128, .f32⟩
  | 7 => ⟨S_, .f32⟩
  | 8 => ⟨S100000, .f32⟩
  | 9 => ⟨S100000x1, .f32⟩
  | 10 => ⟨S100000x1, .f32⟩
  | 11 => ⟨S_, .f32⟩
  | 12 => ⟨S100000x1, .f32⟩
  | 13 => ⟨S100000x1, .f32⟩
  | 14 => ⟨S100000x128, .f32⟩
  | 15 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_15 : Ref sig .tc := ⟨.hbm, 104, rfl⟩
abbrev main_v74 : Ref sig .tc := ⟨.hbm, 105, rfl⟩
abbrev main_v75 : Ref sig .tc := ⟨.hbm, 106, rfl⟩
abbrev main_c_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_17 : Ref sig .tc := ⟨.hbm, 115, rfl⟩
abbrev main_v83 : Ref sig .tc := ⟨.hbm, 116, rfl⟩
abbrev main_v84 : Ref sig .tc := ⟨.hbm, 117, rfl⟩
abbrev main_c_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_19 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_call3_v0 : Ref sig .tc := ⟨.hbm, 134, rfl⟩
abbrev main_call3_cst : Ref sig .tc := ⟨.hbm, 135, rfl⟩
abbrev main_call3_v1 : Ref sig .tc := ⟨.hbm, 136, rfl⟩
abbrev main_call3_v2 : Ref sig .tc := ⟨.hbm, 137, rfl⟩
abbrev main_v99 : Ref sig .tc := ⟨.hbm, 138, rfl⟩
abbrev main_cst_20 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The kernel's run with its result named. Every weakly fair execution of the program on the cores terminates without
  a fault, and in the final state the result array holds what the last of the program's segments leaves there — the
  contents of the result buffer at the last boundary of the walk through the program's stretches of host operations and
  its four regions — while the seven argument arrays hold what they were launched with. The boundary contents are a fold
  from the launch memory: a stretch of host operations applies them in order, a region replaces each of its arrays by
  what its write-backs leave. What those contents are, entry by entry, is read off that fold elsewhere.
-/
import proofs.«115304_j83545703842213_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments as launched. -/
theorem run_named : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Named

end
-- ==== Proof.Region0.lean ====
/-
  The first dense layer's product, read off the kernel's first region. The region walks the 100000 rows of its
  left operand in 20 blocks of 5000 rows; at block t it multiplies rows 5000·t … 5000·t + 4999 by the whole
  128 × 128 right operand (both operands rounded to a narrower format first, which over the extended reals changes
  nothing) and writes the 5000 × 128 product back as rows 5000·t … of the result. Entry (p, q) of a block's product
  is the sum over k of (p, k) of the left block times (k, q) of the right operand, so after the twenty write-backs
  entry (r, c) of the result array is the sum over k of left(r, k) · right(k, c): the blocks tile the array, row r
  lying in block r / 5000.
-/
import proofs.«115304_j83545703842213_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen

theorem zeroOffsets : (![0, 0] : Fin 2 → Nat) = fun _ => 0 := funext fun a => by fin_cases a <;> rfl

/-- Rows times a square matrix, entry by entry: entry (r, c) is the sum over k of A(r, k) · B(k, c). -/
def rowsTimes (A : S100000x128.Idx → EReal) (B : S128x128.Idx → EReal) : S100000x128.Idx → EReal :=
  fun i => ∑ k : Fin 128, A (ix2 (⟨(i 0).val, (i 0).isLt⟩ : Fin 100000) k) * B (ix2 k (⟨(i 1).val, (i 1).isLt⟩ : Fin 128))

theorem rowsTimes_apply (A : S100000x128.Idx → EReal) (B : S128x128.Idx → EReal) (r : Fin 100000) (c : Fin 128) :
    rowsTimes A B (ix2 r c) = ∑ k : Fin 128, A (ix2 r k) * B (ix2 k c) := rfl

/-- The left operand's index in the product's sum keeps the output's row. -/
theorem lhsRow (i : S5000x128.Idx) (s : dot_S5000x128_S128x128_S5000x128_1_0_0_1_n_n.contr.Idx) : (dot_S5000x128_S128x128_S5000x128_1_0_0_1_n_n.lhsIdx i s 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … and runs along the summed coordinate. -/
theorem lhsCol (i : S5000x128.Idx) (s : dot_S5000x128_S128x128_S5000x128_1_0_0_1_n_n.contr.Idx) : (dot_S5000x128_S128x128_S5000x128_1_0_0_1_n_n.lhsIdx i s 1).val = (s ⟨0, by decide⟩).val :=
  dot_S5000x128_S128x128_S5000x128_1_0_0_1_n_n.lhsIdx_val_of_single rfl i s
/-- The right operand's index runs down the summed coordinate … -/
theorem rhsRow (i : S5000x128.Idx) (s : dot_S5000x128_S128x128_S5000x128_1_0_0_1_n_n.contr.Idx) : (dot_S5000x128_S128x128_S5000x128_1_0_0_1_n_n.rhsIdx i s 0).val = (s ⟨0, by decide⟩).val :=
  dot_S5000x128_S128x128_S5000x128_1_0_0_1_n_n.rhsIdx_val_of_single rfl i s
/-- … and keeps the output's column. -/
theorem rhsCol (i : S5000x128.Idx) (s : dot_S5000x128_S128x128_S5000x128_1_0_0_1_n_n.contr.Idx) : (dot_S5000x128_S128x128_S5000x128_1_0_0_1_n_n.rhsIdx i s 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry (p, q) of a block's product: the sum over k of (p, k) of the block times (k, q) of the matrix. Rounding
    the operands is the identity here, and the accumulator starts at zero. -/
theorem blockProduct_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  refine (Ideal.matmul_constant_zero_apply dot_S5000x128_S128x128_S5000x128_1_0_0_1_n_n none
    (truncf .bf16 x0 bitsLt_bf16_f32) (truncf .bf16 x1 bitsLt_bf16_f32) (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k :=
    funext fun a => Fin.ext (by
      match a with
      | ⟨0, _⟩ => exact lhsRow _ _
      | ⟨1, _⟩ => exact (lhsCol _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q :=
    funext fun a => Fin.ext (by
      match a with
      | ⟨0, _⟩ => exact (rhsRow _ _).trans hk
      | ⟨1, _⟩ => exact rhsCol _ _)
  rw [el, er]
  rfl

/-- A block's product where the block is rows of A and the matrix is B: entry (p, q) is entry (r, q) of
    `rowsTimes A B` whenever row p of the block is row r of A. -/
theorem blockProduct_rows (A : S100000x128.Idx → EReal) (B : S128x128.Idx → EReal)
    (x0 : Vec Ideal S5000x128 .f32) (x1 : Vec Ideal S128x128 .f32) (p : Fin 5000) (q : Fin 128) (r : Fin 100000)
    (h0 : ∀ k : Fin 128, x0 (ix2 p k) = A (ix2 r k))
    (h1 : ∀ k : Fin 128, x1 (ix2 k q) = B (ix2 k q)) :
    k0_pay1 (F := Ideal) x0 x1 (ix2 p q) = rowsTimes A B (ix2 r q) := by
  rw [blockProduct_apply, rowsTimes_apply]
  refine Finset.sum_congr rfl fun k _ => ?_
  rw [h0 k, h1 k]

variable (V : (c : Dev nD) → (b : Ref sig .tc) → Buf (Elt Ideal) ((c : Thread nD τ).loc b))

/-- Where each window's block sits at grid point t: the left operand and the result move down one block of rows per
    point, the right operand stays whole. -/
theorem blockIndices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed0_eq (c : Dev nD) (t : Fin cfg0.N) :
    (dat0 V c).flushed 2 t
      = ((cfg0.win 2).blk t).view.read (Elt Ideal) (rowsTimes (V c main_arg0) (V c main_arg3)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x128) zeroOffsets]
  obtain ⟨e00, e01, e10, e11, e20, e21⟩ := blockIndices0 t
  have ht : t.val < 20 := t.isLt.trans_eq N_0
  funext j
  obtain ⟨p, q, rfl⟩ : ∃ (p : Fin 5000) (q : Fin 128), j = ix2 p q := ⟨j 0, j 1, eq_ix2 j⟩
  have hi : ((cfg0.win 2).blk t).view.emb (ix2 p q) = ix2 (⟨t.val * 5000 + p.val, by omega⟩ : Fin 100000) q := by
    funext a; apply Fin.ext
    match a with
    | ⟨0, _⟩ => show win0_2.index t (0 : Fin 2) * 5000 + 1 * p.val = t.val * 5000 + p.val; rw [e20]; omega
    | ⟨1, _⟩ => show win0_2.index t (1 : Fin 2) * 128 + 1 * q.val = q.val; rw [e21]; omega
  show k0_pay1 (iblk0 V c 0 t) (iblk0 V c 1 t) (ix2 p q)
    = rowsTimes (V c main_arg0) (V c main_arg3) (((cfg0.win 2).blk t).view.emb (ix2 p q))
  rw [hi]
  refine blockProduct_rows _ _ _ _ p q _ (fun k => ?_) (fun k => ?_)
  · show V c main_arg0 (((cfg0.win 0).blk t).view.emb (ix2 p k)) = V c main_arg0 _
    congr 1; funext a; apply Fin.ext
    match a with
    | ⟨0, _⟩ => show win0_0.index t (0 : Fin 2) * 5000 + 1 * p.val = t.val * 5000 + p.val; rw [e00]; omega
    | ⟨1, _⟩ => show win0_0.index t (1 : Fin 2) * 128 + 1 * k.val = k.val; rw [e01]; omega
  · show V c main_arg3 (((cfg0.win 1).blk t).view.emb (ix2 k q)) = V c main_arg3 _
    congr 1; funext a; apply Fin.ext
    match a with
    | ⟨0, _⟩ => show win0_1.index t (0 : Fin 2) * 128 + 1 * k.val = k.val; rw [e10]; omega
    | ⟨1, _⟩ => show win0_1.index t (1 : Fin 2) * 128 + 1 * q.val = q.val; rw [e11]; omega

/-- An index of the result array lies in point t's block iff each coordinate lies in the block's range. -/
theorem mem_block0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- The result array after the region: the whole product of the two operand arrays as the region found them
    (row r is written by point r / 5000). -/
theorem final0 (c : Dev nD) :
    (dat0 V c).arrAt 2 cfg0.N = rowsTimes (V c main_arg0) (V c main_arg3) :=
  (dat0 V c).arrAt_eq_of_cover 2 _ (fun t _ => flushed0_eq V c t) fun i => by
    have h0 : (i 0).val < 100000 := (i 0).isLt
    have h1 : (i 1).val < 128 := (i 1).isLt
    have hN : cfg0.N = 20 := N_0
    have hlt : (i 0).val / 5000 < cfg0.N := by rw [hN]; omega
    obtain ⟨-, -, -, -, e20, e21⟩ := blockIndices0 ⟨(i 0).val / 5000, hlt⟩
    refine ⟨⟨(i 0).val / 5000, hlt⟩, flush0_2 _, ?_⟩
    rw [mem_block0]
    intro a
    match a with
    | ⟨0, _⟩ =>
      show win0_2.index ⟨(i 0).val / 5000, hlt⟩ (0 : Fin 2) * 5000 ≤ (i 0).val
        ∧ (i 0).val < win0_2.index ⟨(i 0).val / 5000, hlt⟩ (0 : Fin 2) * 5000 + 5000
      rw [e20]; show (i 0).val / 5000 * 5000 ≤ (i 0).val ∧ (i 0).val < (i 0).val / 5000 * 5000 + 5000; omega
    | ⟨1, _⟩ =>
      show win0_2.index ⟨(i 0).val / 5000, hlt⟩ (1 : Fin 2) * 128 ≤ (i 1).val
        ∧ (i 1).val < win0_2.index ⟨(i 0).val / 5000, hlt⟩ (1 : Fin 2) * 128 + 128
      rw [e21]; omega

end Cert.KernelIdeal.Layer

end
-- ==== Proof.Region1.lean ====
/-
  The first layer's bias and activation, read off the kernel's second region. Over the same 20 blocks of 5000 rows,
  the body adds the bias row (a 1 × 128 array, laid along every row of the block) to the aggregated block and takes
  the maximum with zero, entry by entry. Entry (r, c) of the result array is therefore max(agg(r, c) + bias(0, c), 0):
  nothing in an entry depends on any other row, and the blocks tile the array, row r lying in block r / 5000.
-/
import proofs.«115304_j83545703842213_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Activation

open Cert.KernelIdeal Cert.KernelIdeal.Gen

theorem zeroOffsets : (![0, 0] : Fin 2 → Nat) = fun _ => 0 := funext fun a => by fin_cases a <;> rfl

/-- A bias row added to every row, then the positive part: entry (r, c) is max(A(r, c) + b(0, c), 0). -/
def addRowThenPositive (A : S100000x128.Idx → EReal) (b : S1x128.Idx → EReal) : S100000x128.Idx → EReal :=
  fun i => max (A (ix2 (⟨(i 0).val, (i 0).isLt⟩ : Fin 100000) (⟨(i 1).val, (i 1).isLt⟩ : Fin 128))
      + b (ix2 (0 : Fin 1) (⟨(i 1).val, (i 1).isLt⟩ : Fin 128))) (Ideal.ofBits .f32 0x00000000#32)

theorem addRowThenPositive_apply (A : S100000x128.Idx → EReal) (b : S1x128.Idx → EReal) (r : Fin 100000) (c : Fin 128) :
    addRowThenPositive A b (ix2 r c) = max (A (ix2 r c) + b (ix2 (0 : Fin 1) c)) (Ideal.ofBits .f32 0x00000000#32) := rfl

/-- Entry (p, q) of a block's body: the block's entry plus the bias row's entry q, against zero. -/
theorem blockBody_apply (x0 : Vec Ideal S5000x128 .f32) (x1 : Vec Ideal S1x128 .f32) (p : Fin 5000) (q : Fin 128) :
    k1_pay1 (F := Ideal) x0 x1 (ix2 p q)
      = max (x0 (ix2 p q) + x1 (ix2 (0 : Fin 1) q)) (Ideal.ofBits .f32 0x00000000#32) := by
  unfold k1_pay1
  rw [shapeCast_self, shapeCast_self]
  show max (x0 (ix2 p q) + broadcastTo S5000x128 x1 broadcasts_S1x128_S5000x128 (ix2 p q)) _ = _
  rw [broadcastTo_1b_ab_apply]
  rfl

/-- The same where the block is rows of A and the bias row is b. -/
theorem blockBody_rows (A : S100000x128.Idx → EReal) (b : S1x128.Idx → EReal)
    (x0 : Vec Ideal S5000x128 .f32) (x1 : Vec Ideal S1x128 .f32) (p : Fin 5000) (q : Fin 128) (r : Fin 100000)
    (h0 : x0 (ix2 p q) = A (ix2 r q)) (h1 : x1 (ix2 (0 : Fin 1) q) = b (ix2 (0 : Fin 1) q)) :
    k1_pay1 (F := Ideal) x0 x1 (ix2 p q) = addRowThenPositive A b (ix2 r q) := by
  rw [blockBody_apply, addRowThenPositive_apply, h0, h1]

variable (V : (c : Dev nD) → (b : Ref sig .tc) → Buf (Elt Ideal) ((c : Thread nD τ).loc b))

/-- Where each window's block sits at grid point t: the aggregated array and the result move down one block of rows
    per point, the bias row stays whole. -/
theorem blockIndices1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array function. -/
theorem flushed1_eq (c : Dev nD) (t : Fin cfg1.N) :
    (dat1 V c).flushed 2 t
      = ((cfg1.win 2).blk t).view.read (Elt Ideal) (addRowThenPositive (V c main_v45) (V c main_v46)) := by
  show (cfg1.win 2).cut (grid1.coords t) ((dat1 V c).after 2 t) = _
  rw [after1_2]
  unfold out1_2
  rw [View.canon_unit_zero zeroOffsets]
  simp only [View.ld_unit_zero (S := S5000x128) zeroOffsets, View.ld_unit_zero (S := S1x128) zeroOffsets]
  obtain ⟨e00, e01, e10, e11, e20, e21⟩ := blockIndices1 t
  have ht : t.val < 20 := t.isLt.trans_eq N_1
  funext j
  obtain ⟨p, q, rfl⟩ : ∃ (p : Fin 5000) (q : Fin 128), j = ix2 p q := ⟨j 0, j 1, eq_ix2 j⟩
  have hi : ((cfg1.win 2).blk t).view.emb (ix2 p q) = ix2 (⟨t.val * 5000 + p.val, by omega⟩ : Fin 100000) q := by
    funext a; apply Fin.ext
    match a with
    | ⟨0, _⟩ => show win1_2.index t (0 : Fin 2) * 5000 + 1 * p.val = t.val * 5000 + p.val; rw [e20]; omega
    | ⟨1, _⟩ => show win1_2.index t (1 : Fin 2) * 128 + 1 * q.val = q.val; rw [e21]; omega
  show k1_pay1 (iblk1 V c 0 t) (iblk1 V c 1 t) (ix2 p q)
    = addRowThenPositive (V c main_v45) (V c main_v46) (((cfg1.win 2).blk t).view.emb (ix2 p q))
  rw [hi]
  refine blockBody_rows _ _ _ _ p q _ ?_ ?_
  · show V c main_v45 (((cfg1.win 0).blk t).view.emb (ix2 p q)) = V c main_v45 _
    refine congrArg _ (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 128 + 1 * q.val = q.val; rw [e01]; omega
  · show V c main_v46 (((cfg1.win 1).blk t).view.emb (ix2 (0 : Fin 1) q)) = V c main_v46 _
    refine congrArg _ (funext fun a => Fin.ext ?_)
    match a with
    | ⟨0, _⟩ => show win1_1.index t (0 : Fin 2) * 1 + 1 * 0 = 0; rw [e10]
    | ⟨1, _⟩ => show win1_1.index t (1 : Fin 2) * 128 + 1 * q.val = q.val; rw [e11]; omega

theorem mem_block1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v47).slice (win1_2.rect t)).set ↔ _
  rw [View.set_slice_whole, Rect.mem_set_unit]
  exact Iff.rfl

/-- The result array after the region: bias added and positive part taken, of the two arrays as the region found them. -/
theorem final1 (c : Dev nD) :
    (dat1 V c).arrAt 2 cfg1.N = addRowThenPositive (V c main_v45) (V c main_v46) :=
  (dat1 V c).arrAt_eq_of_cover 2 _ (fun t _ => flushed1_eq V c t) fun i => by
    have h0 : (i 0).val < 100000 := (i 0).isLt
    have h1 : (i 1).val < 128 := (i 1).isLt
    have hN : cfg1.N = 20 := N_1
    have hlt : (i 0).val / 5000 < cfg1.N := by rw [hN]; omega
    obtain ⟨-, -, -, -, e20, e21⟩ := blockIndices1 ⟨(i 0).val / 5000, hlt⟩
    refine ⟨⟨(i 0).val / 5000, hlt⟩, flush1_2 _, ?_⟩
    rw [mem_block1]
    intro a
    match a with
    | ⟨0, _⟩ =>
      show win1_2.index ⟨(i 0).val / 5000, hlt⟩ (0 : Fin 2) * 5000 ≤ (i 0).val
        ∧ (i 0).val < win1_2.index ⟨(i 0).val / 5000, hlt⟩ (0 : Fin 2) * 5000 + 5000
      rw [e20]; show (i 0).val / 5000 * 5000 ≤ (i 0).val ∧ (i 0).val < (i 0).val / 5000 * 5000 + 5000; omega
    | ⟨1, _⟩ =>
      show win1_2.index ⟨(i 0).val / 5000, hlt⟩ (1 : Fin 2) * 128 ≤ (i 1).val
        ∧ (i 1).val < win1_2.index ⟨(i 0).val / 5000, hlt⟩ (1 : Fin 2) * 128 + 128
      rw [e21]; omega

end Cert.KernelIdeal.Activation

end
-- ==== Proof.Region2.lean ====
/-
  The second dense layer's product, read off the kernel's third region: the same 20 blocks of 5000 rows, now of the
  first layer's activations, each multiplied by the second 128 × 128 weight matrix. The body differs from the first
  product's only by a cast of the block to its own shape in front, which reads every entry where it was.
-/
import proofs.«115304_j83545703842213_1_alg».proof.Proof.Region0

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen

/-- The second product's block body is the first's: the cast in front keeps every entry in place. -/
theorem secondBody_eq (x0 : Vec Ideal S5000x128 .f32) (x1 : Vec Ideal S128x128 .f32) :
    k2_pay1 (F := Ideal) x0 x1 = k0_pay1 (F := Ideal) x0 x1 := by
  unfold k2_pay1 k0_pay1
  rw [shapeCast_self]

variable (V : (c : Dev nD) → (b : Ref sig .tc) → Buf (Elt Ideal) ((c : Thread nD τ).loc b))

theorem blockIndices2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product. -/
theorem flushed2_eq (c : Dev nD) (t : Fin cfg2.N) :
    (dat2 V c).flushed 2 t
      = ((cfg2.win 2).blk t).view.read (Elt Ideal) (rowsTimes (V c main_v47) (V c main_arg5)) := by
  show (cfg2.win 2).cut (grid2.coords t) ((dat2 V c).after 2 t) = _
  rw [after2_2]
  unfold out2_2
  rw [View.canon_unit_zero zeroOffsets]
  simp only [View.ld_unit_zero (S := S5000x128) zeroOffsets, View.ld_unit_zero (S := S128x128) zeroOffsets]
  obtain ⟨e00, e01, e10, e11, e20, e21⟩ := blockIndices2 t
  have ht : t.val < 20 := t.isLt.trans_eq N_2
  funext j
  obtain ⟨p, q, rfl⟩ : ∃ (p : Fin 5000) (q : Fin 128), j = ix2 p q := ⟨j 0, j 1, eq_ix2 j⟩
  have hi : ((cfg2.win 2).blk t).view.emb (ix2 p q) = ix2 (⟨t.val * 5000 + p.val, by omega⟩ : Fin 100000) q := by
    funext a; apply Fin.ext
    match a with
    | ⟨0, _⟩ => show win2_2.index t (0 : Fin 2) * 5000 + 1 * p.val = t.val * 5000 + p.val; rw [e20]; omega
    | ⟨1, _⟩ => show win2_2.index t (1 : Fin 2) * 128 + 1 * q.val = q.val; rw [e21]; omega
  show k2_pay1 (iblk2 V c 0 t) (iblk2 V c 1 t) (ix2 p q)
    = rowsTimes (V c main_v47) (V c main_arg5) (((cfg2.win 2).blk t).view.emb (ix2 p q))
  rw [hi, secondBody_eq]
  refine blockProduct_rows _ _ _ _ p q _ (fun k => ?_) (fun k => ?_)
  · show V c main_v47 (((cfg2.win 0).blk t).view.emb (ix2 p k)) = V c main_v47 _
    congr 1; funext a; apply Fin.ext
    match a with
    | ⟨0, _⟩ => show win2_0.index t (0 : Fin 2) * 5000 + 1 * p.val = t.val * 5000 + p.val; rw [e00]; omega
    | ⟨1, _⟩ => show win2_0.index t (1 : Fin 2) * 128 + 1 * k.val = k.val; rw [e01]; omega
  · show V c main_arg5 (((cfg2.win 1).blk t).view.emb (ix2 k q)) = V c main_arg5 _
    congr 1; funext a; apply Fin.ext
    match a with
    | ⟨0, _⟩ => show win2_1.index t (0 : Fin 2) * 128 + 1 * k.val = k.val; rw [e10]; omega
    | ⟨1, _⟩ => show win2_1.index t (1 : Fin 2) * 128 + 1 * q.val = q.val; rw [e11]; omega

theorem mem_block2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v48).slice (win2_2.rect t)).set ↔ _
  rw [View.set_slice_whole, Rect.mem_set_unit]
  exact Iff.rfl

/-- The result array after the region: the whole product of the two operand arrays as the region found them. -/
theorem final2 (c : Dev nD) :
    (dat2 V c).arrAt 2 cfg2.N = rowsTimes (V c main_v47) (V c main_arg5) :=
  (dat2 V c).arrAt_eq_of_cover 2 _ (fun t _ => flushed2_eq V c t) fun i => by
    have h0 : (i 0).val < 100000 := (i 0).isLt
    have h1 : (i 1).val < 128 := (i 1).isLt
    have hN : cfg2.N = 20 := N_2
    have hlt : (i 0).val / 5000 < cfg2.N := by rw [hN]; omega
    obtain ⟨-, -, -, -, e20, e21⟩ := blockIndices2 ⟨(i 0).val / 5000, hlt⟩
    refine ⟨⟨(i 0).val / 5000, hlt⟩, flush2_2 _, ?_⟩
    rw [mem_block2]
    intro a
    match a with
    | ⟨0, _⟩ =>
      show win2_2.index ⟨(i 0).val / 5000, hlt⟩ (0 : Fin 2) * 5000 ≤ (i 0).val
        ∧ (i 0).val < win2_2.index ⟨(i 0).val / 5000, hlt⟩ (0 : Fin 2) * 5000 + 5000
      rw [e20]; show (i 0).val / 5000 * 5000 ≤ (i 0).val ∧ (i 0).val < (i 0).val / 5000 * 5000 + 5000; omega
    | ⟨1, _⟩ =>
      show win2_2.index ⟨(i 0).val / 5000, hlt⟩ (1 : Fin 2) * 128 ≤ (i 1).val
        ∧ (i 1).val < win2_2.index ⟨(i 0).val / 5000, hlt⟩ (1 : Fin 2) * 128 + 128
      rw [e21]; omega

end Cert.KernelIdeal.Layer

end
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Region3.lean ====
/-
  The second layer's bias and row normalization, read off the kernel's last region. Over the same 20 blocks of 5000
  rows, the body adds the bias row to the aggregated block, sums the squares of each row's 128 entries, takes the
  square root of that sum, bounds it below by a small positive constant, and divides every entry of the row by the
  bounded root. The row sum is kept as a 5000 × 1 column and laid back along the 128 columns, so entry (p, q) of the
  block's result is val(p, q) / max(√(Σ_k val(p, k)²), ε) with val = block + bias row. Each row of the result depends
  on that row of the aggregated array alone, and the blocks tile the array, row r lying in block r / 5000.
-/
import proofs.«115304_j83545703842213_1_alg».proof.Proof.Gen.KernelIdeal.Frame
import proofs.«115304_j83545703842213_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Normalize

open Cert.KernelIdeal Cert.KernelIdeal.Gen

theorem zeroOffsets : (![0, 0] : Fin 2 → Nat) = fun _ => 0 := funext fun a => by fin_cases a <;> rfl

/-- A bias row added to every row, then each row divided by its length bounded below:
    entry (r, c) is val(r, c) / max(√(Σ_k val(r, k)²), ε) with val(r, k) = A(r, k) + b(0, k). -/
def addRowThenUnitRows (A : S100000x128.Idx → EReal) (b : S1x128.Idx → EReal) : S100000x128.Idx → EReal :=
  fun i => Ideal.div
    (A (ix2 (⟨(i 0).val, (i 0).isLt⟩ : Fin 100000) (⟨(i 1).val, (i 1).isLt⟩ : Fin 128))
      + b (ix2 (0 : Fin 1) (⟨(i 1).val, (i 1).isLt⟩ : Fin 128)))
    (max (Ideal.sqrt (∑ k : Fin 128,
        (A (ix2 (⟨(i 0).val, (i 0).isLt⟩ : Fin 100000) k) + b (ix2 (0 : Fin 1) k))
          * (A (ix2 (⟨(i 0).val, (i 0).isLt⟩ : Fin 100000) k) + b (ix2 (0 : Fin 1) k))))
      (Ideal.ofBits .f32 0x2B8CBCCC#32))

theorem addRowThenUnitRows_apply (A : S100000x128.Idx → EReal) (b : S1x128.Idx → EReal) (r : Fin 100000) (c : Fin 128) :
    addRowThenUnitRows A b (ix2 r c)
      = Ideal.div (A (ix2 r c) + b (ix2 (0 : Fin 1) c))
          (max (Ideal.sqrt (∑ k : Fin 128, (A (ix2 r k) + b (ix2 (0 : Fin 1) k)) * (A (ix2 r k) + b (ix2 (0 : Fin 1) k))))
            (Ideal.ofBits .f32 0x2B8CBCCC#32)) := rfl

/-- The index of a row's sum with lane k put back is (row, k). -/
theorem lift_row (p : Fin 5000) (k : Fin (S5000x128.size 1)) :
    reduces_S5000x128_S5000.lift (ix1 p) k = ix2 p (⟨k.val, k.isLt⟩ : Fin 128) := by
  funext c; apply Fin.ext
  fin_cases c <;> rfl

/-- Entry (p, q) of a block's body. -/
theorem blockBody_apply (x0 : Vec Ideal S5000x128 .f32) (x1 : Vec Ideal S1x128 .f32) (p : Fin 5000) (q : Fin 128) :
    k3_pay1 (F := Ideal) x0 x1 (ix2 p q)
      = Ideal.div (x0 (ix2 p q) + x1 (ix2 (0 : Fin 1) q))
          (max (Ideal.sqrt (∑ k : Fin 128, (x0 (ix2 p k) + x1 (ix2 (0 : Fin 1) k)) * (x0 (ix2 p k) + x1 (ix2 (0 : Fin 1) k))))
            (Ideal.ofBits .f32 0x2B8CBCCC#32)) := by
  unfold k3_pay1
  rw [shapeCast_self, shapeCast_self]
  simp only [divf_apply, addf_apply, broadcastTo_1b_ab_apply, Cert.Keepdims.broadcastTo_a1_ab_apply, maximumf_apply, broadcast_apply]
  -- the row's length: the column cast reads the row sum, and the row sum is the sum over the lanes
  have hs : ∀ (src : FVec Ideal S5000x128 .f32) (h1 : FKind.Formats .f32) (h2 : (0x00000000#32 : BitVec 32) = FKind.add.neutral .f32 h1),
      sqrt (shapeCast S5000x1 (multiReduction .add [1] S5000 src 0x00000000#32 reduces_S5000x128_S5000 h1 h2) shapeCasts_S5000_S5000x1)
          (ix2 p (0 : Fin 1))
        = Ideal.sqrt (∑ k : Fin 128, src (ix2 p k)) := by
    intro src h1 h2
    show Ideal.sqrt (shapeCast S5000x1 (multiReduction .add [1] S5000 src 0x00000000#32 reduces_S5000x128_S5000 h1 h2)
      shapeCasts_S5000_S5000x1 (ix2 p (0 : Fin 1))) = _
    rw [Cert.Keepdims.shapeCast_a_a1_apply]
    refine congrArg Ideal.sqrt ?_
    refine (Ideal.multiReduction_add_single src 0x00000000#32 reduces_S5000x128_S5000 h1 h2 (ix1 p)).trans ?_
    show ∑ k : Fin 128, src (reduces_S5000x128_S5000.lift (ix1 p) k) = _
    refine Finset.sum_congr rfl fun k _ => ?_
    exact congrArg src (lift_row p k)
  refine congrArg (fun z => Ideal.div (x0 (ix2 p q) + x1 (ix2 (0 : Fin 1) q)) (max z (Ideal.ofBits .f32 0x2B8CBCCC#32))) ?_
  refine (hs _ _ _).trans ?_
  refine congrArg Ideal.sqrt (Finset.sum_congr rfl fun k _ => ?_)
  rw [mulf_apply, addf_apply, broadcastTo_1b_ab_apply]

/-- The same where the block is rows of A and the bias row is b. -/
theorem blockBody_rows (A : S100000x128.Idx → EReal) (b : S1x128.Idx → EReal)
    (x0 : Vec Ideal S5000x128 .f32) (x1 : Vec Ideal S1x128 .f32) (p : Fin 5000) (q : Fin 128) (r : Fin 100000)
    (h0 : ∀ k : Fin 128, x0 (ix2 p k) = A (ix2 r k)) (h1 : ∀ k : Fin 128, x1 (ix2 (0 : Fin 1) k) = b (ix2 (0 : Fin 1) k)) :
    k3_pay1 (F := Ideal) x0 x1 (ix2 p q) = addRowThenUnitRows A b (ix2 r q) := by
  rw [blockBody_apply, addRowThenUnitRows_apply, h0 q, h1 q]
  refine congrArg (fun z => Ideal.div (A (ix2 r q) + b (ix2 (0 : Fin 1) q)) (max (Ideal.sqrt z) (Ideal.ofBits .f32 0x2B8CBCCC#32))) ?_
  refine Finset.sum_congr rfl fun k _ => ?_
  rw [h0 k, h1 k]

variable (V : (c : Dev nD) → (b : Ref sig .tc) → Buf (Elt Ideal) ((c : Thread nD τ).loc b))

/-- Where each window's block sits at grid point t. -/
theorem blockIndices3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole-array function. -/
theorem flushed3_eq (c : Dev nD) (t : Fin cfg3.N) :
    (dat3 V c).flushed 2 t
      = ((cfg3.win 2).blk t).view.read (Elt Ideal) (addRowThenUnitRows (V c main_v61) (V c main_v62)) := by
  show (cfg3.win 2).cut (grid3.coords t) ((dat3 V c).after 2 t) = _
  rw [after3_2]
  unfold out3_2
  rw [View.canon_unit_zero zeroOffsets]
  simp only [View.ld_unit_zero (S := S5000x128) zeroOffsets, View.ld_unit_zero (S := S1x128) zeroOffsets]
  obtain ⟨e00, e01, e10, e11, e20, e21⟩ := blockIndices3 t
  have ht : t.val < 20 := t.isLt.trans_eq N_3
  funext j
  obtain ⟨p, q, rfl⟩ : ∃ (p : Fin 5000) (q : Fin 128), j = ix2 p q := ⟨j 0, j 1, eq_ix2 j⟩
  have hi : ((cfg3.win 2).blk t).view.emb (ix2 p q) = ix2 (⟨t.val * 5000 + p.val, by omega⟩ : Fin 100000) q := by
    funext a; apply Fin.ext
    match a with
    | ⟨0, _⟩ => show win3_2.index t (0 : Fin 2) * 5000 + 1 * p.val = t.val * 5000 + p.val; rw [e20]; omega
    | ⟨1, _⟩ => show win3_2.index t (1 : Fin 2) * 128 + 1 * q.val = q.val; rw [e21]; omega
  show k3_pay1 (iblk3 V c 0 t) (iblk3 V c 1 t) (ix2 p q)
    = addRowThenUnitRows (V c main_v61) (V c main_v62) (((cfg3.win 2).blk t).view.emb (ix2 p q))
  rw [hi]
  refine blockBody_rows _ _ _ _ p q _ (fun k => ?_) (fun k => ?_)
  · show V c main_v61 (((cfg3.win 0).blk t).view.emb (ix2 p k)) = V c main_v61 _
    refine congrArg _ (funext fun a => Fin.ext ?_)
    match a with
    | ⟨0, _⟩ => show win3_0.index t (0 : Fin 2) * 5000 + 1 * p.val = t.val * 5000 + p.val; rw [e00]; omega
    | ⟨1, _⟩ => show win3_0.index t (1 : Fin 2) * 128 + 1 * k.val = k.val; rw [e01]; omega
  · show V c main_v62 (((cfg3.win 1).blk t).view.emb (ix2 (0 : Fin 1) k)) = V c main_v62 _
    refine congrArg _ (funext fun a => Fin.ext ?_)
    match a with
    | ⟨0, _⟩ => show win3_1.index t (0 : Fin 2) * 1 + 1 * 0 = 0; rw [e10]
    | ⟨1, _⟩ => show win3_1.index t (1 : Fin 2) * 128 + 1 * k.val = k.val; rw [e11]; omega

theorem mem_block3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v63).slice (win3_2.rect t)).set ↔ _
  rw [View.set_slice_whole, Rect.mem_set_unit]
  exact Iff.rfl

/-- The result array after the region. -/
theorem final3 (c : Dev nD) :
    (dat3 V c).arrAt 2 cfg3.N = addRowThenUnitRows (V c main_v61) (V c main_v62) :=
  (dat3 V c).arrAt_eq_of_cover 2 _ (fun t _ => flushed3_eq V c t) fun i => by
    have h0 : (i 0).val < 100000 := (i 0).isLt
    have h1 : (i 1).val < 128 := (i 1).isLt
    have hN : cfg3.N = 20 := N_3
    have hlt : (i 0).val / 5000 < cfg3.N := by rw [hN]; omega
    obtain ⟨-, -, -, -, e20, e21⟩ := blockIndices3 ⟨(i 0).val / 5000, hlt⟩
    refine ⟨⟨(i 0).val / 5000, hlt⟩, flush3_2 _, ?_⟩
    rw [mem_block3]
    intro a
    match a with
    | ⟨0, _⟩ =>
      show win3_2.index ⟨(i 0).val / 5000, hlt⟩ (0 : Fin 2) * 5000 ≤ (i 0).val
        ∧ (i 0).val < win3_2.index ⟨(i 0).val / 5000, hlt⟩ (0 : Fin 2) * 5000 + 5000
      rw [e20]; show (i 0).val / 5000 * 5000 ≤ (i 0).val ∧ (i 0).val < (i 0).val / 5000 * 5000 + 5000; omega
    | ⟨1, _⟩ =>
      show win3_2.index ⟨(i 0).val / 5000, hlt⟩ (1 : Fin 2) * 128 ≤ (i 1).val
        ∧ (i 1).val < win3_2.index ⟨(i 0).val / 5000, hlt⟩ (1 : Fin 2) * 128 + 128
      rw [e21]; omega

end Cert.KernelIdeal.Normalize

end
-- ==== Proof.HostStretches.lean ====
/-
  The host operations between the kernel's regions, read as functions of the buffers they start from.
  Between the first product and the first activation, and again between the second product and the normalization, the
  program aggregates over the graph's edges: it gathers the row of the product at each edge's source node, scales it by
  the edge's normalization weight, and adds it into the row of the edge's target node, starting from zero. Which rows
  are read and written depends on the edge list's values, so the aggregation is kept as ONE function `aggregate` of the
  product array, the edges' sources and targets, and their weights; nothing here looks inside it. Beside it the bias
  vector is recast as a 1 × 128 row. Every fact is stated from an arbitrary starting valuation of the buffers.
-/
import proofs.«115304_j83545703842213_1_alg».proof.Proof.Gen.KernelIdeal.Launch
import Idealize.ShloMosaic.Lib.StableHlo.Run
import Idealize.ShloMosaic.Lib.Tactic
import Idealize.ShloMosaic.PureOps.Ideal

set_option maxRecDepth 16384

noncomputable section

open Idealize.ShloMosaic Idealize.ShloMosaic.TcCoe Idealize.SL.Sem Idealize.ShloMosaic.Tactic

namespace Cert.KernelIdeal.Edges

open Cert.KernelIdeal Cert.KernelIdeal.Gen

/-- The aggregation over the edges, as the program spells it: from a zero array, add into row `dst e` the row
    `src e` of `xw` (a negative source wrapped round once) scaled by `w e`, for every edge e. -/
def aggregate (xw : (⟨S100000x128, .f32⟩ : BufTy).Contents (Elt Ideal))
    (src dst : (⟨S1700000, .i32⟩ : BufTy).Contents (Elt Ideal))
    (w : (⟨S1700000, .f32⟩ : BufTy).Contents (Elt Ideal)) : (⟨S100000x128, .f32⟩ : BufTy).Contents (Elt Ideal) :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dst)
    (mulf
      (Host.gather gather_S100000x128_S1700000x1_S1700000x128_1_0_n_n_0_1_1128 xw
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src)))
      (broadcastInDim S1700000x128 ![0, 1] bcast_S1700000x1_S1700000x128_0_1
        (broadcastInDim S1700000x1 ![0] bcast_S1700000_S1700000x1_0 w)))

variable (W : Valuation τ sig (Elt Ideal))

/-- After the first stretch of aggregation the aggregated array is `aggregate` of the first product and the edge data. -/
theorem aggregated1 :
    StableHlo.after (hostOps1 (F := Ideal)) W (Proc.devRef .tc main_v45)
      = aggregate (W (Proc.devRef .tc main_v32)) (W (Proc.devRef .tc main_v5)) (W (Proc.devRef .tc main_v6))
          (W (Proc.devRef .tc main_v31)) := by
  after_results_simp
  rfl

/-- … and the first bias is recast as a row. -/
theorem biasRow1 :
    StableHlo.after (hostOps1 (F := Ideal)) W (Proc.devRef .tc main_v46)
      = shapeCast S1x128 (W (Proc.devRef .tc main_arg4)) shapeCasts_S128_S1x128 := by
  after_results
  rfl

/-- After the second stretch the aggregated array is `aggregate` of the second product and the same edge data. -/
theorem aggregated3 :
    StableHlo.after (hostOps3 (F := Ideal)) W (Proc.devRef .tc main_v61)
      = aggregate (W (Proc.devRef .tc main_v48)) (W (Proc.devRef .tc main_v5)) (W (Proc.devRef .tc main_v6))
          (W (Proc.devRef .tc main_v31)) := by
  after_results_simp
  rfl

/-- … and the second bias is recast as a row. -/
theorem biasRow3 :
    StableHlo.after (hostOps3 (F := Ideal)) W (Proc.devRef .tc main_v62)
      = shapeCast S1x128 (W (Proc.devRef .tc main_arg6)) shapeCasts_S128_S1x128 := by
  after_results
  rfl

/-! ## What the first stretch of aggregation leaves alone

The edge data were computed before the first region and the later arguments are never written: the stretch reads
them and writes other buffers. -/

theorem kept1_sources : StableHlo.after (hostOps1 (F := Ideal)) W (Proc.devRef .tc main_v5) = W (Proc.devRef .tc main_v5) := by
  after_results_simp <;> rfl
theorem kept1_targets : StableHlo.after (hostOps1 (F := Ideal)) W (Proc.devRef .tc main_v6) = W (Proc.devRef .tc main_v6) := by
  after_results_simp <;> rfl
theorem kept1_weights : StableHlo.after (hostOps1 (F := Ideal)) W (Proc.devRef .tc main_v31) = W (Proc.devRef .tc main_v31) := by
  after_results_simp <;> rfl
theorem kept1_arg5 : StableHlo.after (hostOps1 (F := Ideal)) W (Proc.devRef .tc main_arg5) = W (Proc.devRef .tc main_arg5) := by
  after_results_simp <;> rfl
theorem kept1_arg6 : StableHlo.after (hostOps1 (F := Ideal)) W (Proc.devRef .tc main_arg6) = W (Proc.devRef .tc main_arg6) := by
  after_results_simp <;> rfl

/-! ## The edges' normalization weights, stretch by stretch

Before the first region the program computes, for every edge, its normalization weight: each node's degree is the sum
of the weights of the edges into it; its inverse root is taken where the degree is positive and zero elsewhere (an
outlined selection, whose three operations form a stretch of their own); and an edge's weight is its raw weight times
the inverse roots at its source and at its target. The last step is kept as ONE function of the inverse roots, the
sources, the targets and the raw weights. -/

/-- An edge's normalized weight: inverse root at its source, times its raw weight, times inverse root at its target
    (a negative node index wrapped round once, as the program spells an index). -/
def edgeWeights (dinv : FVec Ideal S100000 .f32) (src dst : IVec S1700000 32) (w : FVec Ideal S1700000 .f32) :
    FVec Ideal S1700000 .f32 :=
  mulf (F := Ideal) (φ := .f32)
    (mulf (F := Ideal) (φ := .f32)
      (Host.gather gather_S100000_S1700000x1_S1700000_n_0_n_n_0_1_1 dinv
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src)))
      w)
    (Host.gather gather_S100000_S1700000x1_S1700000_n_0_n_n_0_1_1 dinv
      (broadcastInDim S1700000x1 ![0] bcast_S1700000_S1700000x1_0
        (select (cmpi .slt dst (broadcastInDim S1700000 ![] bcast_S_S1700000 (constantI S_ 32 0#32)))
          (addi dst (broadcastInDim S1700000 ![] bcast_S_S1700000 (constantI S_ 32 100000#32))) dst)))

/-- The last stretch before the first region leaves the edges' weights at `edgeWeights` of what it starts from. -/
theorem weights_after :
    StableHlo.after (hostOps0_2 (F := Ideal)) W (Proc.devRef .tc main_v31)
      = edgeWeights (W (Proc.devRef .tc main_v15)) (W (Proc.devRef .tc main_v5)) (W (Proc.devRef .tc main_v6))
          (W (Proc.devRef .tc main_v8)) := by
  after_results_simp
  rfl

/-- The outlined selection: the inverse root where the degree is positive, the given scalar elsewhere. -/
theorem inverseRoots_after :
    StableHlo.after (hostOps0_1 (F := Ideal)) W (Proc.devRef .tc main_v15)
      = select (W (Proc.devRef .tc main_v13)) (W (Proc.devRef .tc main_v14))
          (broadcastInDim S100000 ![] bcast_S_S100000 (id (W (Proc.devRef .tc main_cst_2)))) := by
  after_results_simp
  rfl

/-- The selection's stretch leaves the sources, the targets and the raw weights alone. -/
theorem keptSel_sources : StableHlo.after (hostOps0_1 (F := Ideal)) W (Proc.devRef .tc main_v5) = W (Proc.devRef .tc main_v5) := by
  after_results_simp <;> rfl
theorem keptSel_targets : StableHlo.after (hostOps0_1 (F := Ideal)) W (Proc.devRef .tc main_v6) = W (Proc.devRef .tc main_v6) := by
  after_results_simp <;> rfl
theorem keptSel_raw : StableHlo.after (hostOps0_1 (F := Ideal)) W (Proc.devRef .tc main_v8) = W (Proc.devRef .tc main_v8) := by
  after_results_simp <;> rfl

end Cert.KernelIdeal.Edges

end
-- ==== Proof.KernelValue.lean ====
/-
  What the kernel's result array holds, as one expression of the seven arguments: the fold through the program read
  back from its end. The last region leaves in the result the normalized, biased second aggregation; the second
  aggregation is `aggregate` of the second product and the edge data; the second product is the first layer's
  activations times the second weight matrix; the activations are the biased first aggregation's positive part; the
  first aggregation is `aggregate` of the first product and the same edge data; the first product is the node features
  times the first weight matrix. The edge data (each edge's source, its target, its normalization weight) are computed
  once, before the first region, from the edge list and the edge weights alone, and no later segment writes them, so
  both aggregations read the same three arrays. Arguments are never written.
-/
import proofs.«115304_j83545703842213_1_alg».proof.Proof.Region0
import proofs.«115304_j83545703842213_1_alg».proof.Proof.Region1
import proofs.«115304_j83545703842213_1_alg».proof.Proof.Region2
import proofs.«115304_j83545703842213_1_alg».proof.Proof.Region3
import proofs.«115304_j83545703842213_1_alg».proof.Proof.HostStretches

set_option maxRecDepth 16384

noncomputable section

open Idealize.ShloMosaic Idealize.ShloMosaic.TcCoe Idealize.SL.Sem Idealize.ShloMosaic.Tactic Idealize.ShloMosaic.ValueIdx
open Idealize.ShloMosaic.Pipeline (Dat)

namespace Cert.KernelIdeal.Whole

open Cert.KernelIdeal Cert.KernelIdeal.Gen
open Cert.KernelIdeal.Layer Cert.KernelIdeal.Activation Cert.KernelIdeal.Normalize Cert.KernelIdeal.Edges

variable (m : (ℓ : Loc nD τ sig) → Buf (Elt Ideal) ℓ) (ρ : Dev nD → PrngReg)

/-! ## The edge data, as the first region finds them -/

/-- Each edge's source node (the self-loops appended). -/
abbrev sources (c : Dev nD) := W3 m ρ c (Proc.devRef .tc main_v5)
/-- Each edge's target node. -/
abbrev targets (c : Dev nD) := W3 m ρ c (Proc.devRef .tc main_v6)
/-- Each edge's normalization weight. -/
abbrev weights (c : Dev nD) := W3 m ρ c (Proc.devRef .tc main_v31)

/-! ## The arguments where the regions and stretches read them -/

theorem entry_arg0 (c : Dev nD) : V3 m ρ c main_arg0 = m ((c : Thread nD τ).loc main_arg0) := by
  show W3 m ρ c (Proc.devRef .tc main_arg0) = _
  after_results_simp <;> rfl
theorem entry_arg3 (c : Dev nD) : V3 m ρ c main_arg3 = m ((c : Thread nD τ).loc main_arg3) := by
  show W3 m ρ c (Proc.devRef .tc main_arg3) = _
  after_results_simp <;> rfl
theorem entry_arg4 (c : Dev nD) : W3 m ρ c (Proc.devRef .tc main_arg4) = m ((c : Thread nD τ).loc main_arg4) := by
  after_results_simp <;> rfl
theorem entry_arg5 (c : Dev nD) : W3 m ρ c (Proc.devRef .tc main_arg5) = m ((c : Thread nD τ).loc main_arg5) := by
  after_results_simp <;> rfl
theorem entry_arg6 (c : Dev nD) : W3 m ρ c (Proc.devRef .tc main_arg6) = m ((c : Thread nD τ).loc main_arg6) := by
  after_results_simp <;> rfl

/-! ## The first layer -/

/-- The first product: node features times the first weight matrix. -/
theorem product1 (c : Dev nD) :
    W4 m ρ c (Proc.devRef .tc main_v32)
      = rowsTimes (m ((c : Thread nD τ).loc main_arg0)) (m ((c : Thread nD τ).loc main_arg3)) := by
  refine ((W4_arr m ρ c 2).trans (final0 (V3 m ρ) c)).trans ?_
  rw [entry_arg0, entry_arg3]

/-- The first aggregation. -/
theorem aggregation1 (c : Dev nD) :
    V5 m ρ c main_v45
      = aggregate (rowsTimes (m ((c : Thread nD τ).loc main_arg0)) (m ((c : Thread nD τ).loc main_arg3)))
          (sources m ρ c) (targets m ρ c) (weights m ρ c) := by
  refine (aggregated1 (W4 m ρ c)).trans ?_
  rw [product1, W4_of_ne m ρ c main_v5 (by decide), W4_of_ne m ρ c main_v6 (by decide), W4_of_ne m ρ c main_v31 (by decide)]

/-- The first bias as a row. -/
theorem bias1 (c : Dev nD) :
    V5 m ρ c main_v46 = shapeCast S1x128 (m ((c : Thread nD τ).loc main_arg4)) shapeCasts_S128_S1x128 := by
  refine (biasRow1 (W4 m ρ c)).trans ?_
  rw [W4_of_ne m ρ c main_arg4 (by decide), entry_arg4]

/-- The first layer's activations. -/
theorem activations (c : Dev nD) :
    W6 m ρ c (Proc.devRef .tc main_v47)
      = addRowThenPositive
          (aggregate (rowsTimes (m ((c : Thread nD τ).loc main_arg0)) (m ((c : Thread nD τ).loc main_arg3)))
            (sources m ρ c) (targets m ρ c) (weights m ρ c))
          (shapeCast S1x128 (m ((c : Thread nD τ).loc main_arg4)) shapeCasts_S128_S1x128) := by
  refine ((W6_arr m ρ c 2).trans (final1 (V5 m ρ) c)).trans ?_
  rw [aggregation1, bias1]

/-! ## The second layer -/

theorem mid_arg5 (c : Dev nD) : V6 m ρ c main_arg5 = m ((c : Thread nD τ).loc main_arg5) := by
  show W6 m ρ c (Proc.devRef .tc main_arg5) = _
  rw [W6_of_ne m ρ c main_arg5 (by decide)]
  refine (kept1_arg5 (W4 m ρ c)).trans ?_
  rw [W4_of_ne m ρ c main_arg5 (by decide), entry_arg5]

/-- The second product: the activations times the second weight matrix. -/
theorem product2 (c : Dev nD) :
    W7 m ρ c (Proc.devRef .tc main_v48)
      = rowsTimes
          (addRowThenPositive
            (aggregate (rowsTimes (m ((c : Thread nD τ).loc main_arg0)) (m ((c : Thread nD τ).loc main_arg3)))
              (sources m ρ c) (targets m ρ c) (weights m ρ c))
            (shapeCast S1x128 (m ((c : Thread nD τ).loc main_arg4)) shapeCasts_S128_S1x128))
          (m ((c : Thread nD τ).loc main_arg5)) := by
  refine ((W7_arr m ρ c 2).trans (final2 (V6 m ρ) c)).trans ?_
  rw [mid_arg5]
  refine congrArg (fun a => rowsTimes a _) ?_
  exact activations m ρ c

/-- A buffer the first region's entry holds and nothing later writes before the second aggregation. -/
theorem carried (c : Dev nD) (b : Ref sig .tc) (h0 : ∀ w, Pipeline.arrRef spec0 w ≠ b) (h1 : ∀ w, Pipeline.arrRef spec1 w ≠ b)
    (h2 : ∀ w, Pipeline.arrRef spec2 w ≠ b)
    (hk : ∀ W : Valuation τ sig (Elt Ideal), StableHlo.after (hostOps1 (F := Ideal)) W (Proc.devRef .tc b) = W (Proc.devRef .tc b)) :
    W7 m ρ c (Proc.devRef .tc b) = W3 m ρ c (Proc.devRef .tc b) := by
  rw [W7_of_ne m ρ c b h2, W6_of_ne m ρ c b h1]
  refine (hk (W4 m ρ c)).trans ?_
  rw [W4_of_ne m ρ c b h0]

/-- The second aggregation: of the second product, over the same edge data. -/
theorem aggregation2 (c : Dev nD) :
    V8 m ρ c main_v61
      = aggregate
          (rowsTimes
            (addRowThenPositive
              (aggregate (rowsTimes (m ((c : Thread nD τ).loc main_arg0)) (m ((c : Thread nD τ).loc main_arg3)))
                (sources m ρ c) (targets m ρ c) (weights m ρ c))
              (shapeCast S1x128 (m ((c : Thread nD τ).loc main_arg4)) shapeCasts_S128_S1x128))
            (m ((c : Thread nD τ).loc main_arg5)))
          (sources m ρ c) (targets m ρ c) (weights m ρ c) := by
  refine (aggregated3 (W7 m ρ c)).trans ?_
  rw [product2, carried m ρ c main_v5 (by decide) (by decide) (by decide) kept1_sources,
    carried m ρ c main_v6 (by decide) (by decide) (by decide) kept1_targets,
    carried m ρ c main_v31 (by decide) (by decide) (by decide) kept1_weights]

/-- The second bias as a row. -/
theorem bias2 (c : Dev nD) :
    V8 m ρ c main_v62 = shapeCast S1x128 (m ((c : Thread nD τ).loc main_arg6)) shapeCasts_S128_S1x128 := by
  refine (biasRow3 (W7 m ρ c)).trans ?_
  rw [carried m ρ c main_arg6 (by decide) (by decide) (by decide) kept1_arg6, entry_arg6]

/-- THE RESULT: the normalized, biased second aggregation. -/
theorem result (c : Dev nD) :
    W9 m ρ c (Proc.devRef .tc main_v63)
      = addRowThenUnitRows
          (aggregate
            (rowsTimes
              (addRowThenPositive
                (aggregate (rowsTimes (m ((c : Thread nD τ).loc main_arg0)) (m ((c : Thread nD τ).loc main_arg3)))
                  (sources m ρ c) (targets m ρ c) (weights m ρ c))
                (shapeCast S1x128 (m ((c : Thread nD τ).loc main_arg4)) shapeCasts_S128_S1x128))
              (m ((c : Thread nD τ).loc main_arg5)))
            (sources m ρ c) (targets m ρ c) (weights m ρ c))
          (shapeCast S1x128 (m ((c : Thread nD τ).loc main_arg6)) shapeCasts_S128_S1x128) := by
  refine ((W9_arr m ρ c 2).trans (final3 (V8 m ρ) c)).trans ?_
  rw [aggregation2, bias2]

end Cert.KernelIdeal.Whole

end
-- ==== Proof.RefStages.lean ====
/-
  The reference program's stages as the same functions the kernel's regions were read as.
  Its two matrix products are sums over the contracted coordinate; its bias additions lay the bias vector along every
  row; its activation is the maximum with zero; its row norm is the square root of zero plus the sum of a row's squares,
  kept as a column, bounded below by the same small constant and laid back along the row before the division. Its
  aggregation over the edges is the same chain of gather, scale and scatter-add as the kernel's, applied to its own
  product, so it is the one function `aggregate` of that product and of the edge data — which the reference computes
  twice, once per layer, from the same two arguments, to the same values.
-/
import proofs.«115304_j83545703842213_1_alg».proof.Proof.Region0
import proofs.«115304_j83545703842213_1_alg».proof.Proof.Region1
import proofs.«115304_j83545703842213_1_alg».proof.Proof.Region3
import proofs.«115304_j83545703842213_1_alg».proof.Proof.HostStretches
import proofs.«115304_j83545703842213_1_alg».proof.Proof.Gen.ReferenceIdeal.Read

set_option maxRecDepth 16384

noncomputable section

open Idealize.ShloMosaic Idealize.ShloMosaic.TcCoe Idealize.SL.Sem Idealize.ShloMosaic.ValueIdx

namespace Cert.ReferenceIdeal.Stages

open Cert.ReferenceIdeal Cert.ReferenceIdeal.Gen Cert.ReferenceIdeal.Read
open Cert.KernelIdeal.Layer Cert.KernelIdeal.Activation Cert.KernelIdeal.Normalize Cert.KernelIdeal.Edges

/-- A vector of 128 entries as a 1 × 128 row. -/
def rowOf (b : S128.Idx → EReal) : S1x128.Idx → EReal := fun j => b (ix1 (⟨(j 1).val, (j 1).isLt⟩ : Fin 128))

theorem rowOf_apply (b : S128.Idx → EReal) (c : Fin 128) : rowOf b (ix2 (0 : Fin 1) c) = b (ix1 c) := rfl

/-! ## The two products -/

theorem product1 (x0 : (⟨S100000x128, .f32⟩ : BufTy).Contents (Elt Ideal)) (x3 : (⟨S128x128, .f32⟩ : BufTy).Contents (Elt Ideal)) :
    val_main_v32 (F := Ideal) x0 x3 = rowsTimes x0 x3 := by
  funext i
  obtain ⟨r, c, rfl⟩ : ∃ (r : Fin 100000) (c : Fin 128), i = ix2 r c := ⟨i 0, i 1, eq_ix2 i⟩
  rw [val_main_v32_apply, rowsTimes_apply]
  refine Finset.sum_congr rfl fun k _ => ?_
  have el : lidx_main_v32 (ix2 r c) k = ix2 r k :=
    funext fun a => Fin.ext (by match a with | ⟨0, _⟩ => rfl | ⟨1, _⟩ => rfl)
  have er : ridx_main_v32 (ix2 r c) k = ix2 k c :=
    funext fun a => Fin.ext (by match a with | ⟨0, _⟩ => rfl | ⟨1, _⟩ => rfl)
  rw [el, er]

theorem product2 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v82 (F := Ideal) x0 x1 x2 x3 x4 x5 = rowsTimes (val_main_v49 (F := Ideal) x0 x1 x2 x3 x4) x5 := by
  funext i
  obtain ⟨r, c, rfl⟩ : ∃ (r : Fin 100000) (c : Fin 128), i = ix2 r c := ⟨i 0, i 1, eq_ix2 i⟩
  rw [val_main_v82_apply, rowsTimes_apply]
  refine Finset.sum_congr rfl fun k _ => ?_
  have el : lidx_main_v82 (ix2 r c) k = ix2 r k :=
    funext fun a => Fin.ext (by match a with | ⟨0, _⟩ => rfl | ⟨1, _⟩ => rfl)
  have er : ridx_main_v82 (ix2 r c) k = ix2 k c :=
    funext fun a => Fin.ext (by match a with | ⟨0, _⟩ => rfl | ⟨1, _⟩ => rfl)
  rw [el, er]

/-! ## The bias vectors laid along the rows -/

theorem biasAt1 (x4 : (⟨S128, .f32⟩ : BufTy).Contents (Elt Ideal)) (r : Fin 100000) (c : Fin 128) :
    val_main_v47 (F := Ideal) x4 (ix2 r c) = x4 (ix1 c) := by
  rw [val_main_v47_apply, val_main_v46_apply]
  exact congrArg x4 (funext fun a => Fin.ext (by match a with | ⟨0, _⟩ => rfl))

theorem biasAt2 (x6 : (⟨S128, .f32⟩ : BufTy).Contents (Elt Ideal)) (r : Fin 100000) (c : Fin 128) :
    val_main_v97 (F := Ideal) x6 (ix2 r c) = x6 (ix1 c) := by
  rw [val_main_v97_apply, val_main_v96_apply]
  exact congrArg x6 (funext fun a => Fin.ext (by match a with | ⟨0, _⟩ => rfl))

/-! ## The activation -/

theorem activation1 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) :
    val_main_v49 (F := Ideal) x0 x1 x2 x3 x4 = addRowThenPositive (val_main_v45 (F := Ideal) x0 x1 x2 x3) (rowOf x4) := by
  funext i
  obtain ⟨r, c, rfl⟩ : ∃ (r : Fin 100000) (c : Fin 128), i = ix2 r c := ⟨i 0, i 1, eq_ix2 i⟩
  rw [val_main_v49_apply, val_main_v48_apply, biasAt1, val_main_call1_v0_apply, val_main_call1_cst_apply,
    addRowThenPositive_apply, rowOf_apply]
  rfl

/-! ## The normalization -/

theorem biased2 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (r : Fin 100000) (c : Fin 128) :
    val_main_v98 (F := Ideal) x0 x1 x2 x3 x4 x5 x6 (ix2 r c) = val_main_v95 (F := Ideal) x0 x1 x2 x3 x4 x5 (ix2 r c) + x6 (ix1 c) := by
  rw [val_main_v98_apply, biasAt2]
  rfl

theorem normalized (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v103 (F := Ideal) x0 x1 x2 x3 x4 x5 x6 = addRowThenUnitRows (val_main_v95 (F := Ideal) x0 x1 x2 x3 x4 x5) (rowOf x6) := by
  funext i
  obtain ⟨r, c, rfl⟩ : ∃ (r : Fin 100000) (c : Fin 128), i = ix2 r c := ⟨i 0, i 1, eq_ix2 i⟩
  rw [val_main_v103_apply, val_main_v102_apply, val_main_v101_apply, val_main_v100_apply, val_main_cst_20_apply,
    val_main_v99_apply, val_main_call3_v2_apply, val_main_call3_v1_apply, val_main_call3_cst_apply,
    addRowThenUnitRows_apply, biased2]
  -- the row's sum of squares: zero plus the sum over the row
  have hsum : (∑ k : Fin 128, val_main_call3_v0 (F := Ideal) x0 x1 x2 x3 x4 x5 x6
        (idx_main_call3_v1 (idx_main_call3_v2 (idx_main_v102 (ix2 r c))) k))
      = ∑ k : Fin 128, (val_main_v95 (F := Ideal) x0 x1 x2 x3 x4 x5 (ix2 r k) + rowOf x6 (ix2 (0 : Fin 1) k))
          * (val_main_v95 (F := Ideal) x0 x1 x2 x3 x4 x5 (ix2 r k) + rowOf x6 (ix2 (0 : Fin 1) k)) := by
    refine Finset.sum_congr rfl fun k _ => ?_
    have e : idx_main_call3_v1 (idx_main_call3_v2 (idx_main_v102 (ix2 r c))) k = ix2 r k :=
      funext fun a => Fin.ext (by match a with | ⟨0, _⟩ => rfl | ⟨1, _⟩ => rfl)
    rw [e, val_main_call3_v0_apply, biased2, rowOf_apply]
    rfl
  rw [hsum]
  simp only [Ideal.hostDivf_def, Ideal.maximumf_def, Ideal.hostUnary_sqrt_def, Ideal.ofBits_def]
  rw [Ideal.ofBits_zero_f32, zero_add, rowOf_apply]

/-! ## The aggregations over the edges -/

/-- The reference's first aggregation is `aggregate` of its first product and of its edge data. -/
theorem aggregation1 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) :
    val_main_v45 (F := Ideal) x0 x1 x2 x3
      = aggregate (val_main_v32 (F := Ideal) x0 x3) (val_main_v5 (F := Ideal) x1) (val_main_v6 (F := Ideal) x1)
          (val_main_v31 (F := Ideal) x1 x2) := rfl

/-- The edge data the reference computes again for its second layer are the first layer's. -/
theorem sources_again (x1 : (⟨S2x1600000, .i32⟩ : BufTy).Contents (Elt Ideal)) :
    val_main_v55 (F := Ideal) x1 = val_main_v5 (F := Ideal) x1 := rfl
theorem targets_again (x1 : (⟨S2x1600000, .i32⟩ : BufTy).Contents (Elt Ideal)) :
    val_main_v56 (F := Ideal) x1 = val_main_v6 (F := Ideal) x1 := rfl
theorem weights_again (x1 : (⟨S2x1600000, .i32⟩ : BufTy).Contents (Elt Ideal)) (x2 : (⟨S1600000, .f32⟩ : BufTy).Contents (Elt Ideal)) :
    val_main_v81 (F := Ideal) x1 x2 = val_main_v31 (F := Ideal) x1 x2 := rfl

/-- The reference's second aggregation is `aggregate` of its second product and of the same edge data. -/
theorem aggregation2 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v95 (F := Ideal) x0 x1 x2 x3 x4 x5
      = aggregate (val_main_v82 (F := Ideal) x0 x1 x2 x3 x4 x5) (val_main_v5 (F := Ideal) x1) (val_main_v6 (F := Ideal) x1)
          (val_main_v31 (F := Ideal) x1 x2) := by
  rw [← sources_again, ← targets_again, ← weights_again]
  rfl

/-! ## The edges' normalization weights -/

/-- The reference's edge weights are `edgeWeights` of its inverse roots, sources, targets and raw weights. -/
theorem weights_shape (x1 : (⟨S2x1600000, .i32⟩ : BufTy).Contents (Elt Ideal)) (x2 : (⟨S1600000, .f32⟩ : BufTy).Contents (Elt Ideal)) :
    val_main_v31 (F := Ideal) x1 x2
      = edgeWeights (val_main_v15 (F := Ideal) x1 x2) (val_main_v5 (F := Ideal) x1) (val_main_v6 (F := Ideal) x1)
          (val_main_v8 (F := Ideal) x2) := rfl

/-- Its inverse roots: the outlined selection between the inverse root and the zero scalar. -/
theorem inverseRoots_shape (x1 : (⟨S2x1600000, .i32⟩ : BufTy).Contents (Elt Ideal)) (x2 : (⟨S1600000, .f32⟩ : BufTy).Contents (Elt Ideal)) :
    val_main_v15 (F := Ideal) x1 x2
      = select (val_main_v13 (F := Ideal) x1 x2) (val_main_v14 (F := Ideal) x1 x2)
          (broadcastInDim S100000 ![] bcast_S_S100000 (id (val_main_cst_2 (F := Ideal)))) := rfl

/-! ## The whole reference -/

/-- The reference's result as one expression of its seven arguments. -/
theorem reference_result (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v103 (F := Ideal) x0 x1 x2 x3 x4 x5 x6
      = addRowThenUnitRows
          (aggregate
            (rowsTimes
              (addRowThenPositive
                (aggregate (rowsTimes x0 x3) (val_main_v5 (F := Ideal) x1) (val_main_v6 (F := Ideal) x1) (val_main_v31 (F := Ideal) x1 x2))
                (rowOf x4))
              x5)
            (val_main_v5 (F := Ideal) x1) (val_main_v6 (F := Ideal) x1) (val_main_v31 (F := Ideal) x1 x2))
          (rowOf x6) := by
  rw [normalized, aggregation2, product2, activation1, aggregation1, product1]

end Cert.ReferenceIdeal.Stages

end
-- ==== Proof.Bridge.lean ====
/-
  The two programs compute one function. Written out, the kernel's result array and the reference's are both
      unit-rows( aggregate( positive( aggregate( X · W₁ ) + b₁ ) · W₂ ) + b₂ )
  where X · W is the sum over the shared coordinate, `aggregate` is the one chain of gather, scale and scatter-add over
  the edges, `+ b` lays the bias vector along every row, and unit-rows divides each row by its length bounded below.
  The kernel tiles the rows into blocks and rounds its product's operands to a narrower format (the identity over the
  extended reals); the reference computes the edge data twice; neither changes a value. No step uses that the inputs
  are finite: the only laws used are that a zero accumulator or a zero initial value adds nothing, and that the same
  sum indexed two ways is the same sum.
-/
import proofs.«115304_j83545703842213_1_alg».proof.Defs
import proofs.«115304_j83545703842213_1_alg».proof.Proof.KernelRun
import proofs.«115304_j83545703842213_1_alg».proof.Proof.KernelValue
import proofs.«115304_j83545703842213_1_alg».proof.Proof.RefStages
import proofs.«115304_j83545703842213_1_alg».proof.Proof.Gen.Kernel
import proofs.«115304_j83545703842213_1_alg».proof.Proof.Gen.Kernel.Frame
import proofs.«115304_j83545703842213_1_alg».proof.Proof.Gen.KernelIdeal
import proofs.«115304_j83545703842213_1_alg».proof.Proof.Gen.ReferenceIdeal
import proofs.«115304_j83545703842213_1_alg».proof.Proof.Gen.ReferenceIdeal.Run
import proofs.«115304_j83545703842213_1_alg».proof.Proof.Gen.ReferenceIdeal.Read
import proofs.«115304_j83545703842213_1_alg».proof.Proof.Gen.Pre_finite_inputs
import Idealize.ShloMosaic.Lib.ValueLayout

set_option maxRecDepth 16384

noncomputable section

open Idealize.ShloMosaic Idealize.ShloMosaic.TcCoe Idealize.SL.Sem Idealize.ShloMosaic.Tactic Idealize.ShloMosaic.ValueIdx

namespace Cert.Bridge

open Cert.KernelIdeal Cert.KernelIdeal.Gen
open Cert.KernelIdeal.Layer Cert.KernelIdeal.Activation Cert.KernelIdeal.Normalize Cert.KernelIdeal.Edges

variable (m : (ℓ : Loc nD τ sig) → Buf (Elt Ideal) ℓ) (ρ : Dev nD → PrngReg)

/-! ## The edge data are the same functions of the edge list and the edge weights -/

theorem sources_eq (c : Dev nD) :
    Cert.KernelIdeal.Whole.sources m ρ c = Cert.ReferenceIdeal.Read.val_main_v5 (F := Ideal) (m ((c : Thread nD τ).loc main_arg1)) := by
  show W3 m ρ c (Proc.devRef .tc main_v5) = _
  after_results_simp <;> rfl

theorem targets_eq (c : Dev nD) :
    Cert.KernelIdeal.Whole.targets m ρ c = Cert.ReferenceIdeal.Read.val_main_v6 (F := Ideal) (m ((c : Thread nD τ).loc main_arg1)) := by
  show W3 m ρ c (Proc.devRef .tc main_v6) = _
  after_results_simp <;> rfl

/-! The weights: the first stretch's buffers (no outlined call among its operations) compare directly; the
    selection and the last stretch are read as their own functions. -/

theorem first_positive (c : Dev nD) :
    W1 m ρ c (Proc.devRef .tc main_v13) = Cert.ReferenceIdeal.Read.val_main_v13 (F := Ideal) (m ((c : Thread nD τ).loc main_arg1)) (m ((c : Thread nD τ).loc main_arg2)) := by
  after_results_simp <;> rfl
theorem first_roots (c : Dev nD) :
    W1 m ρ c (Proc.devRef .tc main_v14) = Cert.ReferenceIdeal.Read.val_main_v14 (F := Ideal) (m ((c : Thread nD τ).loc main_arg1)) (m ((c : Thread nD τ).loc main_arg2)) := by
  after_results_simp <;> rfl
theorem first_zero (c : Dev nD) :
    W1 m ρ c (Proc.devRef .tc main_cst_2) = Cert.ReferenceIdeal.Read.val_main_cst_2 (F := Ideal) := by
  after_results_simp <;> rfl
theorem first_sources (c : Dev nD) :
    W1 m ρ c (Proc.devRef .tc main_v5) = Cert.ReferenceIdeal.Read.val_main_v5 (F := Ideal) (m ((c : Thread nD τ).loc main_arg1)) := by
  after_results_simp <;> rfl
theorem first_targets (c : Dev nD) :
    W1 m ρ c (Proc.devRef .tc main_v6) = Cert.ReferenceIdeal.Read.val_main_v6 (F := Ideal) (m ((c : Thread nD τ).loc main_arg1)) := by
  after_results_simp <;> rfl
theorem first_raw (c : Dev nD) :
    W1 m ρ c (Proc.devRef .tc main_v8) = Cert.ReferenceIdeal.Read.val_main_v8 (F := Ideal) (m ((c : Thread nD τ).loc main_arg2)) := by
  after_results_simp <;> rfl

theorem weights_eq (c : Dev nD) :
    Cert.KernelIdeal.Whole.weights m ρ c = Cert.ReferenceIdeal.Read.val_main_v31 (F := Ideal) (m ((c : Thread nD τ).loc main_arg1)) (m ((c : Thread nD τ).loc main_arg2)) := by
  show StableHlo.after hostOps0_2 (W2 m ρ c) (Proc.devRef .tc main_v31) = _
  refine (weights_after (W2 m ρ c)).trans ?_
  have e15 : W2 m ρ c (Proc.devRef .tc main_v15) = Cert.ReferenceIdeal.Read.val_main_v15 (F := Ideal) (m ((c : Thread nD τ).loc main_arg1)) (m ((c : Thread nD τ).loc main_arg2)) := by
    refine (inverseRoots_after (W1 m ρ c)).trans ?_
    rw [Cert.ReferenceIdeal.Stages.inverseRoots_shape, first_positive, first_roots, first_zero]
  have e5 : W2 m ρ c (Proc.devRef .tc main_v5) = Cert.ReferenceIdeal.Read.val_main_v5 (F := Ideal) (m ((c : Thread nD τ).loc main_arg1)) :=
    (keptSel_sources (W1 m ρ c)).trans (first_sources m ρ c)
  have e6 : W2 m ρ c (Proc.devRef .tc main_v6) = Cert.ReferenceIdeal.Read.val_main_v6 (F := Ideal) (m ((c : Thread nD τ).loc main_arg1)) :=
    (keptSel_targets (W1 m ρ c)).trans (first_targets m ρ c)
  have e8 : W2 m ρ c (Proc.devRef .tc main_v8) = Cert.ReferenceIdeal.Read.val_main_v8 (F := Ideal) (m ((c : Thread nD τ).loc main_arg2)) :=
    (keptSel_raw (W1 m ρ c)).trans (first_raw m ρ c)
  rw [e15, e5, e6, e8, Cert.ReferenceIdeal.Stages.weights_shape]

/-! ## A bias vector recast as a row is the row of the vector -/

theorem biasRow_eq (x : S128.Idx → EReal) : shapeCast S1x128 x shapeCasts_S128_S1x128 = Cert.ReferenceIdeal.Stages.rowOf x := by
  funext j
  obtain ⟨u, c, rfl⟩ : ∃ (u : Fin 1) (c : Fin 128), j = ix2 u c := ⟨j 0, j 1, eq_ix2 j⟩
  rw [shapeCast_a_1a_apply]
  rfl

/-- The kernel's result, at the fold's last boundary, is the reference's last stage of the same arguments. -/
theorem kernel_result (c : Dev nD) :
    W9 m ρ c (Proc.devRef .tc main_v63)
      = Cert.ReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Cert.ReferenceIdeal.Stages.reference_result, Cert.KernelIdeal.Whole.result, sources_eq, targets_eq, weights_eq, biasRow_eq, biasRow_eq]

end Cert.Bridge

/-! ## The claims -/

namespace Cert.Proof.Claims

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result array: the kernel's is the
    fold's last-boundary contents, which is the reference's last stage of the same arguments. -/
theorem algebraic : Cert.algebraic_KernelIdeal_ReferenceIdeal := by
  intro m ρ m' ρ' _ hagree
  refine ⟨fun c => Cert.KernelIdeal.Gen.W9 m ρ c (Proc.devRef .tc Cert.KernelIdeal.main_v63),
    Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v103_eq, h0, h1, h2, h3, h4, h5, h6]
  exact (Cert.Bridge.kernel_result m ρ c).symm

end Cert.Proof.Claims

end
-- ==== Proof.lean ====
/- The proof of `Cert.Claim`: a two-layer graph convolution with a row normalization at the end, as a kernel of four
   tiled regions among stretches of host operations, against its plain array reference, equal over the extended reals.
   Proof/Region0 … Region3 read each region's result array as one function of the arrays it starts from (a product of
   rows with a weight matrix, twice; a bias and the positive part; a bias and each row divided by its bounded length);
   Proof/HostStretches names the aggregation over the graph's edges as one function and reads the host operations between
   the regions; Proof/KernelRun states the kernel's run with its result named and Proof/KernelValue reads that result
   back to the seven arguments; Proof/RefStages reads the reference's stages as the same functions; Proof/Bridge joins
   the two and states the five claims, assembled here behind the witnesses of the programs' stated facts. -/
import proofs.«115304_j83545703842213_1_alg».proof.Defs
import proofs.«115304_j83545703842213_1_alg».proof.Proof.Bridge
import proofs.«115304_j83545703842213_1_alg».proof.Proof.Gen.Kernel
import proofs.«115304_j83545703842213_1_alg».proof.Proof.Gen.Kernel.Skeleton
import proofs.«115304_j83545703842213_1_alg».proof.Proof.Gen.Kernel.Launch
import proofs.«115304_j83545703842213_1_alg».proof.Proof.Gen.Kernel.Points
import proofs.«115304_j83545703842213_1_alg».proof.Proof.Gen.Kernel.Frame
import proofs.«115304_j83545703842213_1_alg».proof.Proof.Gen.KernelIdeal
import proofs.«115304_j83545703842213_1_alg».proof.Proof.Gen.KernelIdeal.Skeleton
import proofs.«115304_j83545703842213_1_alg».proof.Proof.Gen.KernelIdeal.Launch
import proofs.«115304_j83545703842213_1_alg».proof.Proof.Gen.KernelIdeal.Points
import proofs.«115304_j83545703842213_1_alg».proof.Proof.Gen.KernelIdeal.Frame
import proofs.«115304_j83545703842213_1_alg».proof.Proof.Gen.ReferenceIdeal
import proofs.«115304_j83545703842213_1_alg».proof.Proof.Gen.ReferenceIdeal.Run
import proofs.«115304_j83545703842213_1_alg».proof.Proof.Gen.ReferenceIdeal.Read
import proofs.«115304_j83545703842213_1_alg».proof.Proof.Gen.Pre_finite_inputs
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_reference, Claims.preserves, Claims.algebraic⟩

end Cert.Proof

end
